-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 85
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x128, .f32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S1700000x1, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1700000x1, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_c_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The kernel program's run, with its result named.

  The program is four pipelined regions among stretches of host operations.  Its contents at the last segment
  boundary are the fold `W9` of the launch memory through every stretch and every region's write-backs; every
  weakly fair execution ends with each unscoped buffer at that fold.  Read at the result buffer this gives the
  result array, and read at the argument buffers it gives the arguments back.
-/
import proofs.«126146_j36773509988954_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer ends at the last boundary's fold and
    the arguments end as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.RunValue

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.Payload.lean ====
/-
  What each kernel body computes from the blocks it loads, read at an index of the block.

  A block is 5000 rows of 128 columns.  The projection bodies multiply the block by the whole 128 x 128 weight
  matrix (the narrowing of both operands to a shorter float format is the identity on extended reals, and the
  accumulator starts at zero), so entry `(p, q)` is the sum over `k` of `block (p, k) * weight (k, q)`.  The bias
  bodies add the bias vector, laid out as one row and repeated down the block, to every row; the first of them
  then takes the maximum with zero.
-/
import proofs.«126146_j36773509988954_1_alg».proof.Proof.Gen.KernelIdeal.Skeleton
import proofs.«126146_j36773509988954_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-- First projection: the block times the weight matrix. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.Lib.PlainDot.matmul_zero_apply 5000 128 128 none (truncf .bf16 x0 bitsLt_bf16_f32) (truncf .bf16 x1 bitsLt_bf16_f32) (ix2 p q)

/-- Second projection: the same product. -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Cert.Lib.PlainDot.matmul_zero_apply 5000 128 128 none (truncf .bf16 x0 bitsLt_bf16_f32) (truncf .bf16 x1 bitsLt_bf16_f32) (ix2 p q)

/-- The bias row repeated down the block, at an entry. -/
theorem bias_rows (x1 : Vec Ideal S128 .f32) (p : Fin 5000) (q : Fin 128) :
    broadcastTo S5000x128 (shapeCast S1x128 x1 shapeCasts_S128_S1x128) broadcasts_S1x128_S5000x128 (ix2 p q) = x1 (ix1 q) :=
  (broadcastTo_1b_ab_apply _ _ p q).trans (shapeCast_a_1a_apply x1 _ 0 q)

/-- First bias body: bias added, then the maximum with zero. -/
theorem pay1_apply (x0 : Vec Ideal S5000x128 .f32) (x1 : Vec Ideal S128 .f32) (p : Fin 5000) (q : Fin 128) :
    k1_pay1 (F := Ideal) x0 x1 (ix2 p q) = max (x0 (ix2 p q) + x1 (ix1 q)) (Ideal.ofBits .f32 0x00000000#32) := by
  unfold k1_pay1
  rw [shapeCast_self]
  show max (x0 (ix2 p q) + broadcastTo S5000x128 (shapeCast S1x128 x1 shapeCasts_S128_S1x128) broadcasts_S1x128_S5000x128 (ix2 p q)) _ = _
  rw [bias_rows]
  rfl

/-- Second bias body: bias added. -/
theorem pay3_apply (x0 : Vec Ideal S5000x128 .f32) (x1 : Vec Ideal S128 .f32) (p : Fin 5000) (q : Fin 128) :
    k3_pay1 (F := Ideal) x0 x1 (ix2 p q) = x0 (ix2 p q) + x1 (ix1 q) := by
  unfold k3_pay1
  rw [shapeCast_self]
  show x0 (ix2 p q) + broadcastTo S5000x128 (shapeCast S1x128 x1 shapeCasts_S128_S1x128) broadcasts_S1x128_S5000x128 (ix2 p q) = _
  rw [bias_rows]

end Cert.KernelIdeal.Payload

end
-- ==== Proof.Spec.lean ====
/-
  The mathematics of the two graph-convolution layers that does not depend on the graph.

  Over the extended reals, for a feature matrix of 100000 rows and 128 columns:
  * `proj x w` is the dense product, row `r` column `c` the sum over `k` of `x (r, k) * w (k, c)`;
  * `biased a b` adds the bias vector `b` to every row of `a`;
  * `rectified a` replaces every entry by its maximum with zero.
-/
import Idealize.ShloMosaic.PureOps.Ideal
import Idealize.ShloMosaic.Lib.ValueIdx

noncomputable section

namespace Cert.Gcn

open Idealize.ShloMosaic Idealize.ShloMosaic.ValueIdx

/-- The dense product of a 100000 x 128 matrix with a 128 x 128 matrix. -/
def proj (x : FVec Ideal ⟨2, ![100000, 128]⟩ .f32) (w : FVec Ideal ⟨2, ![128, 128]⟩ .f32) : FVec Ideal ⟨2, ![100000, 128]⟩ .f32 :=
  fun i => ∑ k : Fin 128, x (ix2 (i 0) k) * w (ix2 k (i 1))

/-- A bias vector added to every row. -/
def biased (a : FVec Ideal ⟨2, ![100000, 128]⟩ .f32) (b : FVec Ideal ⟨1, ![128]⟩ .f32) : FVec Ideal ⟨2, ![100000, 128]⟩ .f32 :=
  fun i => a i + b (ix1 (i 1))

/-- Every entry replaced by its maximum with zero. -/
def rectified (a : FVec Ideal ⟨2, ![100000, 128]⟩ .f32) : FVec Ideal ⟨2, ![100000, 128]⟩ .f32 :=
  fun i => max (a i) (Ideal.ofBits .f32 0x00000000#32)

end Cert.Gcn

end
-- ==== Proof.Region0.lean ====
/-
  The first projection region: twenty grid points, point `t` multiplying rows `5000 t … 5000 t + 4999` of its input
  array by the whole weight matrix and writing the product back as the same rows of its output array.  Each block
  written back is therefore the block of ONE function of the input array and the weights — the dense product
  `Cert.Gcn.proj` — and the twenty blocks cover the output array, which thus ends holding that product.
-/
import proofs.«126146_j36773509988954_1_alg».proof.Proof.Gen.KernelIdeal.Frame
import proofs.«126146_j36773509988954_1_alg».proof.Proof.Payload
import proofs.«126146_j36773509988954_1_alg».proof.Proof.Spec
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and output windows sit at block row `t`, column block 0; the
    weight window stays at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block product is the block of the dense product: when the loaded blocks are the arrays `X`, `Wm` read
    through index maps `e0`, `e1` that agree with the output block's map `e2` on the row and on the column. -/
theorem proj_block (X : FVec Ideal ⟨2, ![100000, 128]⟩ .f32) (Wm : FVec Ideal ⟨2, ![128, 128]⟩ .f32)
    (x0 : Vec Ideal S5000x128 .f32) (x1 : Vec Ideal S128x128 .f32)
    (e0 e2 : S5000x128.Idx → S100000x128.Idx) (e1 : S128x128.Idx → S128x128.Idx)
    (h0 : ∀ y, x0 y = X (e0 y)) (h1 : ∀ y, x1 y = Wm (e1 y))
    (he0 : ∀ (p : Fin 5000) (q k : Fin 128), e0 (ix2 p k) = ix2 (e2 (ix2 p q) 0) k)
    (he1 : ∀ (p : Fin 5000) (q k : Fin 128), e1 (ix2 k q) = ix2 k (e2 (ix2 p q) 1))
    (j : S5000x128.Idx) : k0_pay1 (F := Ideal) x0 x1 j = Cert.Gcn.proj X Wm (e2 j) := by
  obtain ⟨p, q, rfl⟩ : ∃ (p : Fin 5000) (q : Fin 128), j = ix2 p q := ⟨j 0, j 1, eq_ix2 j⟩
  rw [Payload.pay0_apply]
  unfold Cert.Gcn.proj
  refine Finset.sum_congr rfl fun k _ => ?_
  rw [h0, h1, he0 p q k, he1 p q k]
  rfl

/-- What point `t` writes back is block `t` of the dense product of the arrays as the region finds them. -/
theorem flushed_eq (c : Dev nD) (t : Fin cfg0.N) :
    (dat0 (F := Ideal) V c).flushed 2 t = ((cfg0.win 2).blk t).view.read (Elt Ideal) (Cert.Gcn.proj (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  refine proj_block (V c main_arg0) (V c main_arg3) (iblk0 V c 0 t) (iblk0 V c 1 t)
    (((cfg0.win 0).blk t).view.emb) (((cfg0.win 2).blk t).view.emb) (((cfg0.win 1).blk t).view.emb)
    (fun y => rfl) (fun y => rfl) (fun p q k => ?_) (fun p q k => ?_) j
  · funext a; apply Fin.ext
    match a with
    | ⟨0, _⟩ => show win0_0.index t (0 : Fin 2) * 5000 + 1 * p.val = win0_2.index t (0 : Fin 2) * 5000 + 1 * p.val; rw [e0, e4]
    | ⟨1, _⟩ => show win0_0.index t (1 : Fin 2) * 128 + 1 * k.val = k.val; rw [e1]; omega
  · funext a; apply Fin.ext
    match a with
    | ⟨0, _⟩ => show win0_1.index t (0 : Fin 2) * 128 + 1 * k.val = k.val; rw [e2]; omega
    | ⟨1, _⟩ => show win0_1.index t (1 : Fin 2) * 128 + 1 * q.val = win0_2.index t (1 : Fin 2) * 128 + 1 * q.val; rw [e3, e5]

/-- An index of the array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` lies in the block of point `r / 5000`: the blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [show cfg0.N = 20 from N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- The output array after the region. -/
theorem final (c : Dev nD) : (dat0 (F := Ideal) V c).arrAt 2 cfg0.N = Cert.Gcn.proj (V c main_arg0) (V c main_arg3) :=
  (dat0 (F := Ideal) V c).arrAt_eq_of_cover 2 (Cert.Gcn.proj (V c main_arg0) (V c main_arg3)) (fun t _ => flushed_eq V c t) cover

end Cert.KernelIdeal.Region0

end
-- ==== Proof.Region1.lean ====
/-
  The first bias region: twenty grid points, point `t` adding the bias vector to rows `5000 t … 5000 t + 4999` of
  its input array and taking the maximum with zero, and writing them back as the same rows of its output array.  Each
  block written back is the block of ONE function of the input array and the bias, and the twenty blocks cover the
  output array.
-/
import proofs.«126146_j36773509988954_1_alg».proof.Proof.Gen.KernelIdeal.Frame
import proofs.«126146_j36773509988954_1_alg».proof.Proof.Payload
import proofs.«126146_j36773509988954_1_alg».proof.Proof.Spec
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: the input and output windows sit at block row `t`, column block 0; the
    bias window stays at block 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- A block with the bias added and rectified is the block of the whole array so treated: when the loaded blocks are
    the array `A` and the bias `B` read through index maps that agree with the output block's map `e2`. -/
theorem bias_block (A : FVec Ideal ⟨2, ![100000, 128]⟩ .f32) (B : FVec Ideal ⟨1, ![128]⟩ .f32)
    (x0 : Vec Ideal S5000x128 .f32) (x1 : Vec Ideal S128 .f32)
    (e0 e2 : S5000x128.Idx → S100000x128.Idx) (e1 : S128.Idx → S128.Idx)
    (h0 : ∀ y, x0 y = A (e0 y)) (h1 : ∀ y, x1 y = B (e1 y))
    (he0 : ∀ y, e0 y = e2 y)
    (he1 : ∀ (p : Fin 5000) (q : Fin 128), e1 (ix1 q) = ix1 (e2 (ix2 p q) 1))
    (j : S5000x128.Idx) : k1_pay1 (F := Ideal) x0 x1 j = Cert.Gcn.rectified (Cert.Gcn.biased A B) (e2 j) := by
  obtain ⟨p, q, rfl⟩ : ∃ (p : Fin 5000) (q : Fin 128), j = ix2 p q := ⟨j 0, j 1, eq_ix2 j⟩
  rw [Payload.pay1_apply, h0, h1, he0, he1 p q]
  rfl

/-- What point `t` writes back is block `t` of that function of the arrays as the region finds them. -/
theorem flushed_eq (c : Dev nD) (t : Fin cfg1.N) :
    (dat1 (F := Ideal) V c).flushed 2 t = ((cfg1.win 2).blk t).view.read (Elt Ideal) (Cert.Gcn.rectified (Cert.Gcn.biased (V c main_v45) (V c main_arg4))) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128) hz1]
  obtain ⟨e0, e1, e2, e3, e4⟩ := idx_facts t
  funext j
  refine bias_block (V c main_v45) (V c main_arg4) (iblk1 V c 0 t) (iblk1 V c 1 t)
    (((cfg1.win 0).blk t).view.emb) (((cfg1.win 2).blk t).view.emb) (((cfg1.win 1).blk t).view.emb)
    (fun y => rfl) (fun y => rfl) (fun y => ?_) (fun p q => ?_) j
  · funext a; apply Fin.ext
    match a with
    | ⟨0, _⟩ => show win1_0.index t (0 : Fin 2) * 5000 + 1 * (y 0).val = win1_2.index t (0 : Fin 2) * 5000 + 1 * (y 0).val; rw [e0, e3]
    | ⟨1, _⟩ => show win1_0.index t (1 : Fin 2) * 128 + 1 * (y 1).val = win1_2.index t (1 : Fin 2) * 128 + 1 * (y 1).val; rw [e1, e4]
  · funext a; apply Fin.ext
    match a with
    | ⟨0, _⟩ => show win1_1.index t (0 : Fin 1) * 128 + 1 * q.val = win1_2.index t (1 : Fin 2) * 128 + 1 * q.val; rw [e2, e4]

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row `r` lies in the block of point `r / 5000`: the blocks cover the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 := ⟨⟨(i 0).val / 5000, by rw [show cfg1.N = 20 from N_1]; omega⟩, rfl⟩
  obtain ⟨-, -, -, e4, e5⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- The output array after the region. -/
theorem final (c : Dev nD) : (dat1 (F := Ideal) V c).arrAt 2 cfg1.N = Cert.Gcn.rectified (Cert.Gcn.biased (V c main_v45) (V c main_arg4)) :=
  (dat1 (F := Ideal) V c).arrAt_eq_of_cover 2 (Cert.Gcn.rectified (Cert.Gcn.biased (V c main_v45) (V c main_arg4))) (fun t _ => flushed_eq V c t) cover

end Cert.KernelIdeal.Region1

end
-- ==== Proof.Region2.lean ====
/-
  The second projection region: twenty grid points, point `t` multiplying rows `5000 t … 5000 t + 4999` of its input
  array by the whole weight matrix and writing the product back as the same rows of its output array.  Each block
  written back is therefore the block of ONE function of the input array and the weights — the dense product
  `Cert.Gcn.proj` — and the twenty blocks cover the output array, which thus ends holding that product.
-/
import proofs.«126146_j36773509988954_1_alg».proof.Proof.Gen.KernelIdeal.Frame
import proofs.«126146_j36773509988954_1_alg».proof.Proof.Payload
import proofs.«126146_j36773509988954_1_alg».proof.Proof.Spec
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and output windows sit at block row `t`, column block 0; the
    weight window stays at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block product is the block of the dense product: when the loaded blocks are the arrays `X`, `Wm` read
    through index maps `e0`, `e1` that agree with the output block's map `e2` on the row and on the column. -/
theorem proj_block (X : FVec Ideal ⟨2, ![100000, 128]⟩ .f32) (Wm : FVec Ideal ⟨2, ![128, 128]⟩ .f32)
    (x0 : Vec Ideal S5000x128 .f32) (x1 : Vec Ideal S128x128 .f32)
    (e0 e2 : S5000x128.Idx → S100000x128.Idx) (e1 : S128x128.Idx → S128x128.Idx)
    (h0 : ∀ y, x0 y = X (e0 y)) (h1 : ∀ y, x1 y = Wm (e1 y))
    (he0 : ∀ (p : Fin 5000) (q k : Fin 128), e0 (ix2 p k) = ix2 (e2 (ix2 p q) 0) k)
    (he1 : ∀ (p : Fin 5000) (q k : Fin 128), e1 (ix2 k q) = ix2 k (e2 (ix2 p q) 1))
    (j : S5000x128.Idx) : k2_pay1 (F := Ideal) x0 x1 j = Cert.Gcn.proj X Wm (e2 j) := by
  obtain ⟨p, q, rfl⟩ : ∃ (p : Fin 5000) (q : Fin 128), j = ix2 p q := ⟨j 0, j 1, eq_ix2 j⟩
  rw [Payload.pay2_apply]
  unfold Cert.Gcn.proj
  refine Finset.sum_congr rfl fun k _ => ?_
  rw [h0, h1, he0 p q k, he1 p q k]
  rfl

/-- What point `t` writes back is block `t` of the dense product of the arrays as the region finds them. -/
theorem flushed_eq (c : Dev nD) (t : Fin cfg2.N) :
    (dat2 (F := Ideal) V c).flushed 2 t = ((cfg2.win 2).blk t).view.read (Elt Ideal) (Cert.Gcn.proj (V c main_v46) (V c main_arg5)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  refine proj_block (V c main_v46) (V c main_arg5) (iblk2 V c 0 t) (iblk2 V c 1 t)
    (((cfg2.win 0).blk t).view.emb) (((cfg2.win 2).blk t).view.emb) (((cfg2.win 1).blk t).view.emb)
    (fun y => rfl) (fun y => rfl) (fun p q k => ?_) (fun p q k => ?_) j
  · funext a; apply Fin.ext
    match a with
    | ⟨0, _⟩ => show win2_0.index t (0 : Fin 2) * 5000 + 1 * p.val = win2_2.index t (0 : Fin 2) * 5000 + 1 * p.val; rw [e0, e4]
    | ⟨1, _⟩ => show win2_0.index t (1 : Fin 2) * 128 + 1 * k.val = k.val; rw [e1]; omega
  · funext a; apply Fin.ext
    match a with
    | ⟨0, _⟩ => show win2_1.index t (0 : Fin 2) * 128 + 1 * k.val = k.val; rw [e2]; omega
    | ⟨1, _⟩ => show win2_1.index t (1 : Fin 2) * 128 + 1 * q.val = win2_2.index t (1 : Fin 2) * 128 + 1 * q.val; rw [e3, e5]

/-- An index of the array is in point `t`'s block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Row `r` lies in the block of point `r / 5000`: the blocks cover the array. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 := ⟨⟨(i 0).val / 5000, by rw [show cfg2.N = 20 from N_2]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 128 ≤ (i 1).val ∧ (i 1).val < win2_2.index t (1 : Fin 2) * 128 + 128; rw [e5]; omega

/-- The output array after the region. -/
theorem final (c : Dev nD) : (dat2 (F := Ideal) V c).arrAt 2 cfg2.N = Cert.Gcn.proj (V c main_v46) (V c main_arg5) :=
  (dat2 (F := Ideal) V c).arrAt_eq_of_cover 2 (Cert.Gcn.proj (V c main_v46) (V c main_arg5)) (fun t _ => flushed_eq V c t) cover

end Cert.KernelIdeal.Region2

end
-- ==== Proof.Region3.lean ====
/-
  The second bias region: twenty grid points, point `t` adding the bias vector to rows `5000 t … 5000 t + 4999` of
  its input array, and writing them back as the same rows of its output array.  Each
  block written back is the block of ONE function of the input array and the bias, and the twenty blocks cover the
  output array.
-/
import proofs.«126146_j36773509988954_1_alg».proof.Proof.Gen.KernelIdeal.Frame
import proofs.«126146_j36773509988954_1_alg».proof.Proof.Payload
import proofs.«126146_j36773509988954_1_alg».proof.Proof.Spec
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

-- the buffer contents when the region is entered: every statement below holds for any
variable (V : (c : Dev nD) → (b : Ref sig .tc) → Buf (Elt Ideal) ((c : Thread nD τ).loc b))

theorem hz : (![0, 0] : Fin 2 → Nat) = fun _ => 0 := funext fun a => by fin_cases a <;> rfl

theorem hz1 : (![0] : Fin 1 → Nat) = fun _ => 0 := funext fun a => by fin_cases a; rfl

/-- The printed index maps over the grid: the input and output windows sit at block row `t`, column block 0; the
    bias window stays at block 0. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- A block with the bias added is the block of the whole array so treated: when the loaded blocks are
    the array `A` and the bias `B` read through index maps that agree with the output block's map `e2`. -/
theorem bias_block (A : FVec Ideal ⟨2, ![100000, 128]⟩ .f32) (B : FVec Ideal ⟨1, ![128]⟩ .f32)
    (x0 : Vec Ideal S5000x128 .f32) (x1 : Vec Ideal S128 .f32)
    (e0 e2 : S5000x128.Idx → S100000x128.Idx) (e1 : S128.Idx → S128.Idx)
    (h0 : ∀ y, x0 y = A (e0 y)) (h1 : ∀ y, x1 y = B (e1 y))
    (he0 : ∀ y, e0 y = e2 y)
    (he1 : ∀ (p : Fin 5000) (q : Fin 128), e1 (ix1 q) = ix1 (e2 (ix2 p q) 1))
    (j : S5000x128.Idx) : k3_pay1 (F := Ideal) x0 x1 j = Cert.Gcn.biased A B (e2 j) := by
  obtain ⟨p, q, rfl⟩ : ∃ (p : Fin 5000) (q : Fin 128), j = ix2 p q := ⟨j 0, j 1, eq_ix2 j⟩
  rw [Payload.pay3_apply, h0, h1, he0, he1 p q]
  rfl

/-- What point `t` writes back is block `t` of that function of the arrays as the region finds them. -/
theorem flushed_eq (c : Dev nD) (t : Fin cfg3.N) :
    (dat3 (F := Ideal) V c).flushed 2 t = ((cfg3.win 2).blk t).view.read (Elt Ideal) (Cert.Gcn.biased (V c main_v60) (V c main_arg6)) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S128) hz1]
  obtain ⟨e0, e1, e2, e3, e4⟩ := idx_facts t
  funext j
  refine bias_block (V c main_v60) (V c main_arg6) (iblk3 V c 0 t) (iblk3 V c 1 t)
    (((cfg3.win 0).blk t).view.emb) (((cfg3.win 2).blk t).view.emb) (((cfg3.win 1).blk t).view.emb)
    (fun y => rfl) (fun y => rfl) (fun y => ?_) (fun p q => ?_) j
  · funext a; apply Fin.ext
    match a with
    | ⟨0, _⟩ => show win3_0.index t (0 : Fin 2) * 5000 + 1 * (y 0).val = win3_2.index t (0 : Fin 2) * 5000 + 1 * (y 0).val; rw [e0, e3]
    | ⟨1, _⟩ => show win3_0.index t (1 : Fin 2) * 128 + 1 * (y 1).val = win3_2.index t (1 : Fin 2) * 128 + 1 * (y 1).val; rw [e1, e4]
  · funext a; apply Fin.ext
    match a with
    | ⟨0, _⟩ => show win3_1.index t (0 : Fin 1) * 128 + 1 * q.val = win3_2.index t (1 : Fin 2) * 128 + 1 * q.val; rw [e2, e4]

/-- An index of the array is in point `t`'s block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Row `r` lies in the block of point `r / 5000`: the blocks cover the array. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ : ∃ t : Fin cfg3.N, t.val = (i 0).val / 5000 := ⟨⟨(i 0).val / 5000, by rw [show cfg3.N = 20 from N_3]; omega⟩, rfl⟩
  obtain ⟨-, -, -, e4, e5⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; rw [e4, ht]; omega
  | ⟨1, _⟩ => show win3_2.index t (1 : Fin 2) * 128 ≤ (i 1).val ∧ (i 1).val < win3_2.index t (1 : Fin 2) * 128 + 128; rw [e5]; omega

/-- The output array after the region. -/
theorem final (c : Dev nD) : (dat3 (F := Ideal) V c).arrAt 2 cfg3.N = Cert.Gcn.biased (V c main_v60) (V c main_arg6) :=
  (dat3 (F := Ideal) V c).arrAt_eq_of_cover 2 (Cert.Gcn.biased (V c main_v60) (V c main_arg6)) (fun t _ => flushed_eq V c t) cover

end Cert.KernelIdeal.Region3

end
-- ==== Proof.HostStretch.lean ====
/-
  The host operations between the regions, read as functions of the buffers they start from.

  The operations before the first region build, from the edge list and the edge weights, the edges' source and
  target node lists (self loops appended) and each edge's normalisation coefficient; they leave the arguments
  alone.  The operations after each projection gather the projected rows at the edges' sources, scale each by its
  edge's coefficient and scatter-add the scaled rows at the edges' targets into zeros (`aggK`); they leave the
  lists, the coefficients and the arguments alone.
-/
import proofs.«126146_j36773509988954_1_alg».proof.Proof.Gen.KernelIdeal.Launch
import proofs.«126146_j36773509988954_1_alg».proof.Proof.Gen.ReferenceIdeal.Read
import Idealize.ShloMosaic.Lib.StableHlo.Run

set_option maxRecDepth 16384

noncomputable section

namespace Cert.KernelIdeal.HostStretch

open Idealize.ShloMosaic Idealize.ShloMosaic.TcCoe Idealize.SL.Sem Idealize.ShloMosaic.StableHlo
open Cert.KernelIdeal Cert.KernelIdeal.Gen

variable {F : FTy → Type} [FloatOps F]

/-- The edge-wise aggregation of a feature matrix `h`: the rows of `h` gathered at the edges' sources `row` (a
    negative entry wrapped once by the number of nodes), each scaled by its edge's coefficient `nrm`, scatter-added
    at the edges' targets `col` into zeros. -/
def aggK (h : (⟨S100000x128, .f32⟩ : BufTy).Contents (Elt F)) (nrm : (⟨S1700000, .f32⟩ : BufTy).Contents (Elt F))
    (row col : (⟨S1700000, .i32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 col)
    (mulf (broadcastInDim S1700000x128 ![0, 1] bcast_S1700000x1_S1700000x128_0_1 (broadcastInDim S1700000x1 ![0] bcast_S1700000_S1700000x1_0 nrm))
      (Host.gather gather_S100000x128_S1700000x1_S1700000x128_1_0_n_n_0_1_1128 h
        (broadcastInDim S1700000x1 ![0] bcast_S1700000_S1700000x1_0
          (select (cmpi .slt row (broadcastInDim S1700000 ![] bcast_S_S1700000 (constantI S_ 32 0#32)))
            (addi row (broadcastInDim S1700000 ![] bcast_S_S1700000 (constantI S_ 32 100000#32))) row))))

variable (W : Valuation τ sig (Elt F))

/-! ## After the first projection -/

set_option maxHeartbeats 8000000 in
theorem mid_v45 : StableHlo.after hostOps1 W (Proc.devRef .tc main_v45)
    = aggK (W (Proc.devRef .tc main_v32)) (W (Proc.devRef .tc main_v31)) (W (Proc.devRef .tc main_v3)) (W (Proc.devRef .tc main_v6)) := by
  dsimp only [hostOps1]
  after_results
  rfl

theorem mid_keep_v31 : StableHlo.after hostOps1 W (Proc.devRef .tc main_v31) = W (Proc.devRef .tc main_v31) := by
  dsimp only [hostOps1]; after_results
theorem mid_keep_v3 : StableHlo.after hostOps1 W (Proc.devRef .tc main_v3) = W (Proc.devRef .tc main_v3) := by
  dsimp only [hostOps1]; after_results
theorem mid_keep_v6 : StableHlo.after hostOps1 W (Proc.devRef .tc main_v6) = W (Proc.devRef .tc main_v6) := by
  dsimp only [hostOps1]; after_results
theorem mid_keep_arg4 : StableHlo.after hostOps1 W (Proc.devRef .tc main_arg4) = W (Proc.devRef .tc main_arg4) := by
  dsimp only [hostOps1]; after_results
theorem mid_keep_arg5 : StableHlo.after hostOps1 W (Proc.devRef .tc main_arg5) = W (Proc.devRef .tc main_arg5) := by
  dsimp only [hostOps1]; after_results
theorem mid_keep_arg6 : StableHlo.after hostOps1 W (Proc.devRef .tc main_arg6) = W (Proc.devRef .tc main_arg6) := by
  dsimp only [hostOps1]; after_results

/-! ## After the second projection -/

set_option maxHeartbeats 8000000 in
theorem tail_v60 : StableHlo.after hostOps3 W (Proc.devRef .tc main_v60)
    = aggK (W (Proc.devRef .tc main_v47)) (W (Proc.devRef .tc main_v31)) (W (Proc.devRef .tc main_v3)) (W (Proc.devRef .tc main_v6)) := by
  dsimp only [hostOps3]
  after_results
  rfl

theorem tail_keep_arg6 : StableHlo.after hostOps3 W (Proc.devRef .tc main_arg6) = W (Proc.devRef .tc main_arg6) := by
  dsimp only [hostOps3]; after_results

end Cert.KernelIdeal.HostStretch

end
-- ==== Proof.HostPre.lean ====
/-
  The host operations before the first region, read as functions of the launch contents.

  From the edge list they build the edges' source list and target list (every node's self loop appended to each),
  and from the edge weights each edge's normalisation coefficient: the weight (one for a self loop) times the
  inverse square root of the weighted in-degree of its source and of its target, the inverse square root replaced
  by zero where the degree is not positive.  These are the same operations, in the same order, as the reference
  program's, so each list is the reference's stage of the same name.  The arguments are left alone.
-/
import proofs.«126146_j36773509988954_1_alg».proof.Proof.Gen.KernelIdeal.Launch
import proofs.«126146_j36773509988954_1_alg».proof.Proof.Gen.ReferenceIdeal.Read
import Idealize.ShloMosaic.Lib.StableHlo.Run

set_option maxRecDepth 16384

noncomputable section

namespace Cert.KernelIdeal.HostPre

open Idealize.ShloMosaic Idealize.ShloMosaic.TcCoe Idealize.SL.Sem Idealize.ShloMosaic.StableHlo
open Cert.KernelIdeal Cert.KernelIdeal.Gen

variable {F : FTy → Type} [FloatOps F]
variable (W : Valuation τ sig (Elt F))

/-- The contents when the first region is entered, from launch contents `W`. -/
abbrev entry : Valuation τ sig (Elt F) := StableHlo.after hostOps0_2 (StableHlo.after hostOps0_1 (StableHlo.after hostOps0 W))

set_option maxHeartbeats 40000000 in
/-- The edges' sources. -/
theorem pre_v3 : entry W (Proc.devRef .tc main_v3) = Cert.ReferenceIdeal.Read.val_main_v3 (F := F) (W (Proc.devRef .tc main_arg1)) := by
  dsimp only [entry, hostOps0, hostOps0_1, hostOps0_2]
  after_results_simp <;> rfl

set_option maxHeartbeats 40000000 in
/-- The edges' targets. -/
theorem pre_v6 : entry W (Proc.devRef .tc main_v6) = Cert.ReferenceIdeal.Read.val_main_v6 (F := F) (W (Proc.devRef .tc main_arg1)) := by
  dsimp only [entry, hostOps0, hostOps0_1, hostOps0_2]
  after_results_simp <;> rfl

set_option maxHeartbeats 40000000 in
/-- The edges' coefficients. -/
theorem pre_v31 : entry W (Proc.devRef .tc main_v31)
    = Cert.ReferenceIdeal.Read.val_main_v31 (F := F) (W (Proc.devRef .tc main_arg1)) (W (Proc.devRef .tc main_arg2)) := by
  dsimp only [entry, hostOps0, hostOps0_1, hostOps0_2]
  after_results_simp <;> rfl

set_option maxHeartbeats 40000000 in
theorem pre_keep_arg0 : entry W (Proc.devRef .tc main_arg0) = W (Proc.devRef .tc main_arg0) := by
  dsimp only [entry, hostOps0, hostOps0_1, hostOps0_2]; after_results_simp
set_option maxHeartbeats 40000000 in
theorem pre_keep_arg3 : entry W (Proc.devRef .tc main_arg3) = W (Proc.devRef .tc main_arg3) := by
  dsimp only [entry, hostOps0, hostOps0_1, hostOps0_2]; after_results_simp
set_option maxHeartbeats 40000000 in
theorem pre_keep_arg4 : entry W (Proc.devRef .tc main_arg4) = W (Proc.devRef .tc main_arg4) := by
  dsimp only [entry, hostOps0, hostOps0_1, hostOps0_2]; after_results_simp
set_option maxHeartbeats 40000000 in
theorem pre_keep_arg5 : entry W (Proc.devRef .tc main_arg5) = W (Proc.devRef .tc main_arg5) := by
  dsimp only [entry, hostOps0, hostOps0_1, hostOps0_2]; after_results_simp
set_option maxHeartbeats 40000000 in
theorem pre_keep_arg6 : entry W (Proc.devRef .tc main_arg6) = W (Proc.devRef .tc main_arg6) := by
  dsimp only [entry, hostOps0, hostOps0_1, hostOps0_2]; after_results_simp

end Cert.KernelIdeal.HostPre

end
-- ==== Proof.Layers.lean ====
/-
  The two graph-convolution layers as one function of the arguments and of the graph's lists.

  A layer projects the features, aggregates the projected rows edge-wise and adds the bias; the first layer's
  result is rectified before it enters the second.
-/
import proofs.«126146_j36773509988954_1_alg».proof.Proof.HostStretch
import proofs.«126146_j36773509988954_1_alg».proof.Proof.Spec

noncomputable section

namespace Cert.KernelIdeal.Layers

open Idealize.ShloMosaic Cert.KernelIdeal Cert.KernelIdeal.HostStretch

/-- Both layers: `x` the features, `w1 b1 w2 b2` the layers' weights and biases, `nrm row col` the edges'
    coefficients, sources and targets. -/
def twoLayers (x : (⟨S100000x128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) (nrm : (⟨S1700000, .f32⟩ : BufTy).Contents (Elt Ideal))
    (row col : (⟨S1700000, .i32⟩ : BufTy).Contents (Elt Ideal)) : (⟨S100000x128, .f32⟩ : BufTy).Contents (Elt Ideal) :=
  Cert.Gcn.biased (aggK (Cert.Gcn.proj (Cert.Gcn.rectified (Cert.Gcn.biased (aggK (Cert.Gcn.proj x w1) nrm row col) b1)) w2) nrm row col) b2

end Cert.KernelIdeal.Layers

end
-- ==== Proof.KernelValue.lean ====
/-
  The kernel program's result array is the two layers of the arguments.

  The contents at each segment boundary are followed from the launch to the return.  Before the first region the
  host operations leave the arguments alone and build the edges' sources, targets and coefficients.  The first
  region leaves the dense product of the features with the first weights; the host operations after it aggregate
  that product edge-wise; the second region adds the first bias and rectifies; the third multiplies by the second
  weights; the host operations after it aggregate again; the fourth region adds the second bias.  Whatever a
  stretch or a region does not write it leaves as it found it, so the lists, the coefficients and the arguments
  reach every later stage unchanged.
-/
import proofs.«126146_j36773509988954_1_alg».proof.Proof.Gen.KernelIdeal.Frame
import proofs.«126146_j36773509988954_1_alg».proof.Proof.Region0
import proofs.«126146_j36773509988954_1_alg».proof.Proof.Region1
import proofs.«126146_j36773509988954_1_alg».proof.Proof.Region2
import proofs.«126146_j36773509988954_1_alg».proof.Proof.Region3
import proofs.«126146_j36773509988954_1_alg».proof.Proof.HostStretch
import proofs.«126146_j36773509988954_1_alg».proof.Proof.HostPre
import proofs.«126146_j36773509988954_1_alg».proof.Proof.Layers

set_option maxRecDepth 16384

noncomputable section

namespace Cert.KernelIdeal.KernelValue

open Idealize.ShloMosaic Idealize.ShloMosaic.TcCoe Idealize.SL.Sem
open Cert.KernelIdeal Cert.KernelIdeal.Gen Cert.KernelIdeal.HostStretch Cert.KernelIdeal.HostPre
open Cert.ReferenceIdeal.Read (val_main_v3 val_main_v6 val_main_v31)

variable (m : (ℓ : Loc nD τ sig) → Buf (Elt Ideal) ℓ) (ρ : Dev nD → PrngReg) (c : Dev nD)

/-! ## When the first region is entered -/

theorem at3_v31 : W3 m ρ c (Proc.devRef .tc main_v31) = (val_main_v31 (F := Ideal) (m ((c : Thread nD τ).loc main_arg1)) (m ((c : Thread nD τ).loc main_arg2))) := pre_v31 (W0 m ρ c)
theorem at3_v3 : W3 m ρ c (Proc.devRef .tc main_v3) = (val_main_v3 (F := Ideal) (m ((c : Thread nD τ).loc main_arg1))) := pre_v3 (W0 m ρ c)
theorem at3_v6 : W3 m ρ c (Proc.devRef .tc main_v6) = (val_main_v6 (F := Ideal) (m ((c : Thread nD τ).loc main_arg1))) := pre_v6 (W0 m ρ c)
theorem at3_arg0 : W3 m ρ c (Proc.devRef .tc main_arg0) = (m ((c : Thread nD τ).loc main_arg0)) := pre_keep_arg0 (W0 m ρ c)
theorem at3_arg3 : W3 m ρ c (Proc.devRef .tc main_arg3) = (m ((c : Thread nD τ).loc main_arg3)) := pre_keep_arg3 (W0 m ρ c)
theorem at3_arg4 : W3 m ρ c (Proc.devRef .tc main_arg4) = (m ((c : Thread nD τ).loc main_arg4)) := pre_keep_arg4 (W0 m ρ c)
theorem at3_arg5 : W3 m ρ c (Proc.devRef .tc main_arg5) = (m ((c : Thread nD τ).loc main_arg5)) := pre_keep_arg5 (W0 m ρ c)
theorem at3_arg6 : W3 m ρ c (Proc.devRef .tc main_arg6) = (m ((c : Thread nD τ).loc main_arg6)) := pre_keep_arg6 (W0 m ρ c)

/-! ## After the first region -/

theorem at4_v32 : W4 m ρ c (Proc.devRef .tc main_v32) = Cert.Gcn.proj (m ((c : Thread nD τ).loc main_arg0)) (m ((c : Thread nD τ).loc main_arg3)) := by
  refine (W4_arr m ρ c 2).trans ((Region0.final (V3 m ρ) c).trans ?_)
  show Cert.Gcn.proj (W3 m ρ c (Proc.devRef .tc main_arg0)) (W3 m ρ c (Proc.devRef .tc main_arg3)) = _
  rw [at3_arg0 m ρ c, at3_arg3 m ρ c]

theorem at4_v31 : W4 m ρ c (Proc.devRef .tc main_v31) = (val_main_v31 (F := Ideal) (m ((c : Thread nD τ).loc main_arg1)) (m ((c : Thread nD τ).loc main_arg2))) := (W4_of_ne m ρ c main_v31 (by decide)).trans (at3_v31 m ρ c)
theorem at4_v3 : W4 m ρ c (Proc.devRef .tc main_v3) = (val_main_v3 (F := Ideal) (m ((c : Thread nD τ).loc main_arg1))) := (W4_of_ne m ρ c main_v3 (by decide)).trans (at3_v3 m ρ c)
theorem at4_v6 : W4 m ρ c (Proc.devRef .tc main_v6) = (val_main_v6 (F := Ideal) (m ((c : Thread nD τ).loc main_arg1))) := (W4_of_ne m ρ c main_v6 (by decide)).trans (at3_v6 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)

/-! ## When the second region is entered -/

theorem at5_v45 : W5 m ρ c (Proc.devRef .tc main_v45) = aggK (Cert.Gcn.proj (m ((c : Thread nD τ).loc main_arg0)) (m ((c : Thread nD τ).loc main_arg3))) (val_main_v31 (F := Ideal) (m ((c : Thread nD τ).loc main_arg1)) (m ((c : Thread nD τ).loc main_arg2))) (val_main_v3 (F := Ideal) (m ((c : Thread nD τ).loc main_arg1))) (val_main_v6 (F := Ideal) (m ((c : Thread nD τ).loc main_arg1))) := by
  refine (mid_v45 (W4 m ρ c)).trans ?_
  rw [at4_v32 m ρ c, at4_v31 m ρ c, at4_v3 m ρ c, at4_v6 m ρ c]

theorem at5_v31 : W5 m ρ c (Proc.devRef .tc main_v31) = (val_main_v31 (F := Ideal) (m ((c : Thread nD τ).loc main_arg1)) (m ((c : Thread nD τ).loc main_arg2))) := (mid_keep_v31 (W4 m ρ c)).trans (at4_v31 m ρ c)
theorem at5_v3 : W5 m ρ c (Proc.devRef .tc main_v3) = (val_main_v3 (F := Ideal) (m ((c : Thread nD τ).loc main_arg1))) := (mid_keep_v3 (W4 m ρ c)).trans (at4_v3 m ρ c)
theorem at5_v6 : W5 m ρ c (Proc.devRef .tc main_v6) = (val_main_v6 (F := Ideal) (m ((c : Thread nD τ).loc main_arg1))) := (mid_keep_v6 (W4 m ρ c)).trans (at4_v6 m ρ c)
theorem at5_arg4 : W5 m ρ c (Proc.devRef .tc main_arg4) = (m ((c : Thread nD τ).loc main_arg4)) := (mid_keep_arg4 (W4 m ρ c)).trans (at4_arg4 m ρ c)
theorem at5_arg5 : W5 m ρ c (Proc.devRef .tc main_arg5) = (m ((c : Thread nD τ).loc main_arg5)) := (mid_keep_arg5 (W4 m ρ c)).trans (at4_arg5 m ρ c)
theorem at5_arg6 : W5 m ρ c (Proc.devRef .tc main_arg6) = (m ((c : Thread nD τ).loc main_arg6)) := (mid_keep_arg6 (W4 m ρ c)).trans (at4_arg6 m ρ c)

/-! ## After the second region -/

theorem at6_v46 : W6 m ρ c (Proc.devRef .tc main_v46)
    = Cert.Gcn.rectified (Cert.Gcn.biased (aggK (Cert.Gcn.proj (m ((c : Thread nD τ).loc main_arg0)) (m ((c : Thread nD τ).loc main_arg3))) (val_main_v31 (F := Ideal) (m ((c : Thread nD τ).loc main_arg1)) (m ((c : Thread nD τ).loc main_arg2))) (val_main_v3 (F := Ideal) (m ((c : Thread nD τ).loc main_arg1))) (val_main_v6 (F := Ideal) (m ((c : Thread nD τ).loc main_arg1)))) (m ((c : Thread nD τ).loc main_arg4))) := by
  refine (W6_arr m ρ c 2).trans ((Region1.final (V5 m ρ) c).trans ?_)
  show Cert.Gcn.rectified (Cert.Gcn.biased (W5 m ρ c (Proc.devRef .tc main_v45)) (W5 m ρ c (Proc.devRef .tc main_arg4))) = _
  rw [at5_v45 m ρ c, at5_arg4 m ρ c]

theorem at6_v31 : W6 m ρ c (Proc.devRef .tc main_v31) = (val_main_v31 (F := Ideal) (m ((c : Thread nD τ).loc main_arg1)) (m ((c : Thread nD τ).loc main_arg2))) := (W6_of_ne m ρ c main_v31 (by decide)).trans (at5_v31 m ρ c)
theorem at6_v3 : W6 m ρ c (Proc.devRef .tc main_v3) = (val_main_v3 (F := Ideal) (m ((c : Thread nD τ).loc main_arg1))) := (W6_of_ne m ρ c main_v3 (by decide)).trans (at5_v3 m ρ c)
theorem at6_v6 : W6 m ρ c (Proc.devRef .tc main_v6) = (val_main_v6 (F := Ideal) (m ((c : Thread nD τ).loc main_arg1))) := (W6_of_ne m ρ c main_v6 (by decide)).trans (at5_v6 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)

/-! ## After the third region -/

theorem at7_v47 : W7 m ρ c (Proc.devRef .tc main_v47)
    = Cert.Gcn.proj (Cert.Gcn.rectified (Cert.Gcn.biased (aggK (Cert.Gcn.proj (m ((c : Thread nD τ).loc main_arg0)) (m ((c : Thread nD τ).loc main_arg3))) (val_main_v31 (F := Ideal) (m ((c : Thread nD τ).loc main_arg1)) (m ((c : Thread nD τ).loc main_arg2))) (val_main_v3 (F := Ideal) (m ((c : Thread nD τ).loc main_arg1))) (val_main_v6 (F := Ideal) (m ((c : Thread nD τ).loc main_arg1)))) (m ((c : Thread nD τ).loc main_arg4)))) (m ((c : Thread nD τ).loc main_arg5)) := by
  refine (W7_arr m ρ c 2).trans ((Region2.final (V6 m ρ) c).trans ?_)
  show Cert.Gcn.proj (W6 m ρ c (Proc.devRef .tc main_v46)) (W6 m ρ c (Proc.devRef .tc main_arg5)) = _
  rw [at6_v46 m ρ c, at6_arg5 m ρ c]

theorem at7_v31 : W7 m ρ c (Proc.devRef .tc main_v31) = (val_main_v31 (F := Ideal) (m ((c : Thread nD τ).loc main_arg1)) (m ((c : Thread nD τ).loc main_arg2))) := (W7_of_ne m ρ c main_v31 (by decide)).trans (at6_v31 m ρ c)
theorem at7_v3 : W7 m ρ c (Proc.devRef .tc main_v3) = (val_main_v3 (F := Ideal) (m ((c : Thread nD τ).loc main_arg1))) := (W7_of_ne m ρ c main_v3 (by decide)).trans (at6_v3 m ρ c)
theorem at7_v6 : W7 m ρ c (Proc.devRef .tc main_v6) = (val_main_v6 (F := Ideal) (m ((c : Thread nD τ).loc main_arg1))) := (W7_of_ne m ρ c main_v6 (by decide)).trans (at6_v6 m ρ c)
theorem at7_arg6 : W7 m ρ c (Proc.devRef .tc main_arg6) = (m ((c : Thread nD τ).loc main_arg6)) := (W7_of_ne m ρ c main_arg6 (by decide)).trans (at6_arg6 m ρ c)

/-! ## When the fourth region is entered, and after it -/

theorem at8_v60 : W8 m ρ c (Proc.devRef .tc main_v60)
    = aggK (Cert.Gcn.proj (Cert.Gcn.rectified (Cert.Gcn.biased (aggK (Cert.Gcn.proj (m ((c : Thread nD τ).loc main_arg0)) (m ((c : Thread nD τ).loc main_arg3))) (val_main_v31 (F := Ideal) (m ((c : Thread nD τ).loc main_arg1)) (m ((c : Thread nD τ).loc main_arg2))) (val_main_v3 (F := Ideal) (m ((c : Thread nD τ).loc main_arg1))) (val_main_v6 (F := Ideal) (m ((c : Thread nD τ).loc main_arg1)))) (m ((c : Thread nD τ).loc main_arg4)))) (m ((c : Thread nD τ).loc main_arg5))) (val_main_v31 (F := Ideal) (m ((c : Thread nD τ).loc main_arg1)) (m ((c : Thread nD τ).loc main_arg2))) (val_main_v3 (F := Ideal) (m ((c : Thread nD τ).loc main_arg1))) (val_main_v6 (F := Ideal) (m ((c : Thread nD τ).loc main_arg1))) := by
  refine (tail_v60 (W7 m ρ c)).trans ?_
  rw [at7_v47 m ρ c, at7_v31 m ρ c, at7_v3 m ρ c, at7_v6 m ρ c]

theorem at8_arg6 : W8 m ρ c (Proc.devRef .tc main_arg6) = (m ((c : Thread nD τ).loc main_arg6)) := (tail_keep_arg6 (W7 m ρ c)).trans (at7_arg6 m ρ c)

/-- The result buffer at the last boundary is the two layers of the launch contents of the arguments. -/
theorem result : W9 m ρ c (Proc.devRef .tc main_v61) = Layers.twoLayers (m ((c : Thread nD τ).loc main_arg0)) (m ((c : Thread nD τ).loc main_arg3)) (m ((c : Thread nD τ).loc main_arg4)) (m ((c : Thread nD τ).loc main_arg5)) (m ((c : Thread nD τ).loc main_arg6)) (val_main_v31 (F := Ideal) (m ((c : Thread nD τ).loc main_arg1)) (m ((c : Thread nD τ).loc main_arg2))) (val_main_v3 (F := Ideal) (m ((c : Thread nD τ).loc main_arg1))) (val_main_v6 (F := Ideal) (m ((c : Thread nD τ).loc main_arg1))) := by
  refine (W9_arr m ρ c 2).trans ((Region3.final (V8 m ρ) c).trans ?_)
  show Cert.Gcn.biased (W8 m ρ c (Proc.devRef .tc main_v60)) (W8 m ρ c (Proc.devRef .tc main_arg6)) = _
  rw [at8_v60 m ρ c, at8_arg6 m ρ c]
  rfl

end Cert.KernelIdeal.KernelValue

end
-- ==== Proof.RefValue.lean ====
/-
  The reference program's result is the two layers of the arguments.

  The reference's stages are read one at a time: its `dot_general` is the dense product (both are the sum over the
  contracted coordinate), its bias broadcast through one row and then down the rows adds the bias vector to every
  row, its maximum with a broadcast zero rectifies, and its gather / scale / scatter-add chain after each product is
  the edge-wise aggregation over the same sources, targets and coefficients.
-/
import proofs.«126146_j36773509988954_1_alg».proof.Proof.Gen.ReferenceIdeal.Read
import proofs.«126146_j36773509988954_1_alg».proof.Proof.Layers
import proofs.«126146_j36773509988954_1_alg».proof.Proof.LibPlainDot

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open Cert.KernelIdeal.HostStretch (aggK)

/-- The host's `dot_general` of a feature matrix with a weight matrix is the dense product. -/
theorem proj_eq (l : FVec Ideal S100000x128 .f32) (r : FVec Ideal S128x128 .f32) :
    Host.dotGeneral dot_S100000x128_S128x128_S100000x128_1_0_0_1_n_n none l r = Cert.Gcn.proj l r := by
  funext i
  simp only [Host.dotGeneral]
  exact Cert.Lib.PlainDot.dotGeneral_apply 100000 128 128 none _ l r i

/-- The bias laid out as one row and repeated down the rows, added: the bias vector added to every row. -/
theorem biased_eq (a : (⟨S100000x128, .f32⟩ : BufTy).Contents (Elt Ideal)) (b : (⟨S128, .f32⟩ : BufTy).Contents (Elt Ideal)) :
    addf a (broadcastInDim S100000x128 ![0, 1] bcast_S1x128_S100000x128_0_1 (broadcastInDim S1x128 ![1] bcast_S128_S1x128_1 b))
      = Cert.Gcn.biased a b := by
  funext i
  show a i + val_main_v47 (F := Ideal) b i = a i + b (ix1 (i 1))
  rw [val_main_v47_apply, val_main_v46_apply]
  exact congrArg (fun z => a i + b z) (funext fun d => match d with | ⟨0, _⟩ => rfl)

/-- The maximum with a broadcast zero rectifies. -/
theorem rectified_eq (a : (⟨S100000x128, .f32⟩ : BufTy).Contents (Elt Ideal)) :
    maximumf a (broadcastInDim S100000x128 ![] bcast_S_S100000x128 (constant S_ .f32 0x00000000#32)) = Cert.Gcn.rectified a := by
  funext i
  show max (a i) (val_main_call1_v0 (F := Ideal) i) = max (a i) (Ideal.ofBits .f32 0x00000000#32)
  rw [val_main_call1_v0_apply]
  rfl

/-- The first layer's gather / scale / scatter-add chain is the edge-wise aggregation. -/
theorem agg_first {F : FTy → Type} [FloatOps F] (x1 : (⟨S2x1600000, .i32⟩ : BufTy).Contents (Elt F)) (x2 : (⟨S1600000, .f32⟩ : BufTy).Contents (Elt F))
    (h : (⟨S100000x128, .f32⟩ : BufTy).Contents (Elt F)) :
    (Host.scatterAdd scatter_S100000x128_S1700000x1_S1700000x128_1_0_0_1 (val_main_v43 (F := F)) (val_main_v44 (F := F) x1)
        (mulf (val_main_v41 (F := F) x1 x2) (Host.gather gather_S100000x128_S1700000x1_S1700000x128_1_0_n_n_0_1_1128 h (val_main_v39 (F := F) x1)))
        : (⟨S100000x128, .f32⟩ : BufTy).Contents (Elt F))
      = aggK h (val_main_v31 (F := F) x1 x2) (val_main_v3 (F := F) x1) (val_main_v6 (F := F) x1) := rfl

/-- The second layer's chain is the same aggregation. -/
theorem agg_second {F : FTy → Type} [FloatOps F] (x1 : (⟨S2x1600000, .i32⟩ : BufTy).Contents (Elt F)) (x2 : (⟨S1600000, .f32⟩ : BufTy).Contents (Elt F))
    (h : (⟨S100000x128, .f32⟩ : BufTy).Contents (Elt F)) :
    (Host.scatterAdd scatter_S100000x128_S1700000x1_S1700000x128_1_0_0_1 (val_main_v61 (F := F)) (val_main_v62 (F := F) x1)
        (mulf (val_main_v59 (F := F) x1 x2) (Host.gather gather_S100000x128_S1700000x1_S1700000x128_1_0_n_n_0_1_1128 h (val_main_v57 (F := F) x1)))
        : (⟨S100000x128, .f32⟩ : BufTy).Contents (Elt F))
      = aggK h (val_main_v31 (F := F) x1 x2) (val_main_v3 (F := F) x1) (val_main_v6 (F := F) x1) := rfl

/-- The reference's result stage is the two layers of its arguments, over the lists its first stages build. -/
theorem result_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) :
    val_main_v66 (F := Ideal) x0 x1 x2 x3 x4 x5 x6
      = Cert.KernelIdeal.Layers.twoLayers x0 x3 x4 x5 x6 (val_main_v31 (F := Ideal) x1 x2) (val_main_v3 (F := Ideal) x1) (val_main_v6 (F := Ideal) x1) := by
  have e32 : val_main_v32 (F := Ideal) x0 x3 = Cert.Gcn.proj x0 x3 := proj_eq x0 x3
  have e45 : val_main_v45 (F := Ideal) x0 x1 x2 x3 = aggK (Cert.Gcn.proj x0 x3) (val_main_v31 (F := Ideal) x1 x2) (val_main_v3 (F := Ideal) x1) (val_main_v6 (F := Ideal) x1) :=
    (agg_first (F := Ideal) x1 x2 (val_main_v32 (F := Ideal) x0 x3)).trans (by rw [e32])
  have e48 : val_main_v48 (F := Ideal) x0 x1 x2 x3 x4 = Cert.Gcn.biased (aggK (Cert.Gcn.proj x0 x3) (val_main_v31 (F := Ideal) x1 x2) (val_main_v3 (F := Ideal) x1) (val_main_v6 (F := Ideal) x1)) x4 :=
    (biased_eq (val_main_v45 (F := Ideal) x0 x1 x2 x3) x4).trans (by rw [e45])
  have e49 : val_main_v49 (F := Ideal) x0 x1 x2 x3 x4 = Cert.Gcn.rectified (Cert.Gcn.biased (aggK (Cert.Gcn.proj x0 x3) (val_main_v31 (F := Ideal) x1 x2) (val_main_v3 (F := Ideal) x1) (val_main_v6 (F := Ideal) x1)) x4) :=
    (rectified_eq (val_main_v48 (F := Ideal) x0 x1 x2 x3 x4)).trans (by rw [e48])
  have e50 : val_main_v50 (F := Ideal) x0 x1 x2 x3 x4 x5 = Cert.Gcn.proj (Cert.Gcn.rectified (Cert.Gcn.biased (aggK (Cert.Gcn.proj x0 x3) (val_main_v31 (F := Ideal) x1 x2) (val_main_v3 (F := Ideal) x1) (val_main_v6 (F := Ideal) x1)) x4)) x5 :=
    (proj_eq (val_main_v49 (F := Ideal) x0 x1 x2 x3 x4) x5).trans (by rw [e49])
  have e63 : val_main_v63 (F := Ideal) x0 x1 x2 x3 x4 x5 = aggK (Cert.Gcn.proj (Cert.Gcn.rectified (Cert.Gcn.biased (aggK (Cert.Gcn.proj x0 x3) (val_main_v31 (F := Ideal) x1 x2) (val_main_v3 (F := Ideal) x1) (val_main_v6 (F := Ideal) x1)) x4)) x5) (val_main_v31 (F := Ideal) x1 x2) (val_main_v3 (F := Ideal) x1) (val_main_v6 (F := Ideal) x1) :=
    (agg_second (F := Ideal) x1 x2 (val_main_v50 (F := Ideal) x0 x1 x2 x3 x4 x5)).trans (by rw [e50])
  exact (biased_eq (val_main_v63 (F := Ideal) x0 x1 x2 x3 x4 x5) x6).trans (by rw [e63]; rfl)

end Cert.ReferenceIdeal.RefValue

end
-- ==== Proof.lean ====
/-
  Two graph-convolution layers on 100000 nodes with 128 features and 1600000 weighted edges: the kernel program
  against the reference, equal at the ideal instance.

  Both programs first build, with the same host operations, the edges' source and target lists (each node's self
  loop appended) and each edge's coefficient: its weight times the inverse square roots of the weighted in-degrees
  of its two ends.  A layer is then: project the features by a dense 128 x 128 product, gather the projected rows at
  the edges' sources, scale each by its edge's coefficient, scatter-add them at the edges' targets, add the bias;
  the first layer's result is rectified before the second layer.

  The reference does the projections, the bias additions and the rectification with host operations on the whole
  arrays.  The kernel program does each of them in a region of twenty grid points working on blocks of 5000 rows:
  a block product into a zero accumulator (after narrowing both operands' float format, the identity on extended
  reals), and the bias row repeated down the block.  Row `r` of a product depends on row `r` of the features
  only, and the bias addition and the rectification are entry-wise, so each written block is the block of ONE
  function of the whole input arrays and the blocks cover the output: each region leaves exactly the array the
  reference's operation leaves.  The gather / scale / scatter-add chains between the regions are the reference's
  own, applied to equal arrays, and are never opened.  No law used here needs the inputs finite (a sum over the
  contracted coordinate is the same sum on both sides), so the precondition is not opened.

  Frames: the two kernel programs' are the generated frame certificates; the reference's is its generated run with
  the result dropped.  The ideal pass rewrote nothing, so there is nothing to preserve.
-/
import proofs.«126146_j36773509988954_1_alg».proof.Defs
import proofs.«126146_j36773509988954_1_alg».proof.Proof.Gen.Kernel
import proofs.«126146_j36773509988954_1_alg».proof.Proof.Gen.Kernel.Frame
import proofs.«126146_j36773509988954_1_alg».proof.Proof.Gen.KernelIdeal
import proofs.«126146_j36773509988954_1_alg».proof.Proof.Gen.KernelIdeal.Frame
import proofs.«126146_j36773509988954_1_alg».proof.Proof.Gen.ReferenceIdeal
import proofs.«126146_j36773509988954_1_alg».proof.Proof.Gen.Pre_finite_inputs
import proofs.«126146_j36773509988954_1_alg».proof.Proof.Gen.ReferenceIdeal.Run
import proofs.«126146_j36773509988954_1_alg».proof.Proof.Gen.ReferenceIdeal.Read
import proofs.«126146_j36773509988954_1_alg».proof.Proof.KernelRun
import proofs.«126146_j36773509988954_1_alg».proof.Proof.KernelValue
import proofs.«126146_j36773509988954_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the two layers of the arguments they agree on. -/
theorem algebraic : Cert.algebraic_KernelIdeal_ReferenceIdeal := by
  intro m ρ m' ρ' _ hagree
  refine ⟨fun c => Cert.KernelIdeal.Layers.twoLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (Cert.ReferenceIdeal.Read.val_main_v31 (F := Ideal)
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.ReferenceIdeal.Read.val_main_v3 (F := Ideal)
        (m ((c.tc : Thread Cert.KernelIdeal.nD Cert.KernelIdeal.τ).loc Cert.KernelIdeal.main_arg1)))
      (Cert.ReferenceIdeal.Read.val_main_v6 (F := Ideal)
        (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.KernelValue.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v66_eq, Cert.ReferenceIdeal.RefValue.result_eq]
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
